-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_arg7 : FVec F S16x16 .f32) (main_arg8 : FVec F S16 .f32) (main_v33 : IVec S_ 1) : IVec S_ 1 :=
  let main_v34 : FVec F S16x16 .f32 := Host.absf main_arg7
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S32 .f32) (main_arg5 : FVec F S32x16 .f32) (main_arg6 : FVec F S16 .f32) (main_arg7 : FVec F S16x16 .f32) (main_arg8 : FVec F S16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S8192x128 .f32) (main_arg1 : FVec F S128x64 .f32) (main_arg2 : FVec F S64 .f32) (main_arg3 : FVec F S64x32 .f32) (main_arg4 : FVec F S32 .f32) (main_arg5 : FVec F S32x16 .f32) (main_arg6 : FVec F S16 .f32) (main_arg7 : FVec F S16x16 .f32) (main_arg8 : FVec F S16 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_arg7 main_arg8 main_v13 main_v16
-- ==== Kernel.lean ====
abbrev S8192x128 : Shape := ⟨2, ![8192, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S8192x64 : Shape := ⟨2, ![8192, 64]⟩
abbrev S1x64 : Shape := ⟨2, ![1, 64]⟩
abbrev S_ : Shape := ⟨0, ![]⟩
abbrev S8192x32 : Shape := ⟨2, ![8192, 32]⟩
abbrev S1x32 : Shape := ⟨2, ![1, 32]⟩
abbrev S8192x16 : Shape := ⟨2, ![8192, 16]⟩
abbrev S1x16 : Shape := ⟨2, ![1, 16]⟩
abbrev S8192 : Shape := ⟨1, ![8192]⟩
abbrev S1x8192 : Shape := ⟨2, ![1, 8192]⟩
abbrev S16x8192 : Shape := ⟨2, ![16, 8192]⟩
abbrev S8192x8192 : Shape := ⟨2, ![8192, 8192]⟩
abbrev S256x16 : Shape := ⟨2, ![256, 16]⟩
abbrev S256x8192 : Shape := ⟨2, ![256, 8192]⟩
abbrev S256 : Shape := ⟨1, ![256]⟩
abbrev S256x1 : Shape := ⟨2, ![256, 1]⟩

abbrev nBuf : Space → Nat
  | .hbm => 40
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S8192x64, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192x64, .f32⟩
  | .hbm, ⟨15, _⟩ => ⟨S8192x64, .f32⟩
  | .hbm, ⟨16, _⟩ => ⟨S8192x32, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S_, .f32⟩
  | .hbm, ⟨21, _⟩ => ⟨S8192x32, .f32⟩
  | .hbm, ⟨22, _⟩ => ⟨S8192x32, .f32⟩
  | .hbm, ⟨23, _⟩ => ⟨S8192x16, .f32⟩
  | .hbm, ⟨24, _⟩ => ⟨S1x16, .f32⟩
  | .hbm, ⟨25, _⟩ => ⟨S8192x16, .f32⟩
  | .hbm, ⟨26, _⟩ => ⟨S8192x16, .f32⟩
  | .hbm, ⟨27, _⟩ => ⟨S_, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S_, .f32⟩
  | .hbm, ⟨36, _⟩ => ⟨S8192, .f32⟩
  | .hbm, ⟨37, _⟩ => ⟨S1x8192, .f32⟩
  | .hbm, ⟨38, _⟩ => ⟨S16x8192, .f32⟩
  | .hbm, ⟨39, _⟩ => ⟨S8192x8192, .f32⟩
  | .local _ .vmem, ⟨0, _⟩ => ⟨S256x16, .f32⟩
  | .local _ .vmem, ⟨1, _⟩ => ⟨S256x16, .f32⟩
  | .local _ .vmem, ⟨2, _⟩ => ⟨S1x8192, .f32⟩
  | .local _ .vmem, ⟨3, _⟩ => ⟨S16x8192, .f32⟩
  | .local _ .vmem, ⟨4, _⟩ => ⟨S256x8192, .f32⟩
  | .local _ .vmem, ⟨5, _⟩ => ⟨S256x8192, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  reducesTo_S8192x16_S8192_d1 : S8192x16.ReducesTo [1] S8192
  h_S_ : 0 < S_.numel
  shapeCasts_S8192_S1x8192 : S8192.ShapeCasts S1x8192
  transposes_S8192x16_S16x8192_1_0 : S8192x16.Transposes [1, 0] S16x8192
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  reduces_S256x16_S256 : S256x16.Reduces [1] S256
  shapeCasts_S256_S256x1 : S256.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  reduces_S256x8192_S256 : S256x8192.Reduces [1] S256
  inb_S256x8192_S256x8192_0_0 : ∀ a, (![0, 0] : Fin 2 → Nat) a + S256x8192.size a ≤ S256x8192.size a
  h_S256x8192 : 0 < S256x8192.numel
  dot_S8192x128_S128x64_S8192x64_1_0_0_1_n_n_wf : DotDims.WF S8192x128 S128x64 S8192x64 [1] [0] [0] [1] [] []
  dot_S8192x64_S64x32_S8192x32_1_0_0_1_n_n_wf : DotDims.WF S8192x64 S64x32 S8192x32 [1] [0] [0] [1] [] []
  dot_S8192x32_S32x16_S8192x16_1_0_0_1_n_n_wf : DotDims.WF S8192x32 S32x16 S8192x16 [1] [0] [0] [1] [] []
  dot_S8192x16_S16x16_S8192x16_1_0_0_1_n_n_wf : DotDims.WF S8192x16 S16x16 S8192x16 [1] [0] [0] [1] [] []
  dot_S256x16_S16x8192_S256x8192_1_0_0_1_n_n_wf : DotDims.WF S256x16 S16x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16.size a ≤ S8192x16.size a
  hwx0_0 : ∀ i : grid0.Coords, EltTy.bits .f32 = 32 ∨ (Rect.block (s := S8192x16) S256x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x8192.size a ≤ S16x8192.size a
  hwx0_2 : ∀ i : grid0.Coords, EltTy.bits .f32 = 32 ∨ (Rect.block (s := S16x8192) S16x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S8192x8192.size a
  hwx0_3 : ∀ i : grid0.Coords, EltTy.bits .f32 = 32 ∨ (Rect.block (s := S8192x8192) S256x8192.size (cc0_transform_3 i) (hinb0_3 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S256x16_S16x8192_S256x8192_1_0_0_1_n_n : DotDims S256x16 S16x8192 S256x8192 where
  lhsContracting := [1]
  rhsContracting := [0]
  lhsNonContracting := [0]
  rhsNonContracting := [1]
  lhsBatch := []
  rhsBatch := []
  wf := dot_S256x16_S16x8192_S256x8192_1_0_0_1_n_n_wf

abbrev win0_0 : Pipeline.Window sig grid0 :=
  Pipeline.Window.ofSpec (Memref.whole main_v18) S256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S16x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S8192x64 : Shape := ⟨2, ![8192, 64]⟩
abbrev S1x64 : Shape := ⟨2, ![1, 64]⟩
abbrev S_ : Shape := ⟨0, ![]⟩
abbrev S8192x32 : Shape := ⟨2, ![8192, 32]⟩
abbrev S1x32 : Shape := ⟨2, ![1, 32]⟩
abbrev S8192x16 : Shape := ⟨2, ![8192, 16]⟩
abbrev S1x16 : Shape := ⟨2, ![1, 16]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192 : Shape := ⟨2, ![16, 8192]⟩

abbrev nBuf : Space → Nat
  | .hbm => 62
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S8192x64, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192x64, .f32⟩
  | .hbm, ⟨15, _⟩ => ⟨S8192x64, .f32⟩
  | .hbm, ⟨16, _⟩ => ⟨S8192x32, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S_, .f32⟩
  | .hbm, ⟨21, _⟩ => ⟨S8192x32, .f32⟩
  | .hbm, ⟨22, _⟩ => ⟨S8192x32, .f32⟩
  | .hbm, ⟨23, _⟩ => ⟨S8192x16, .f32⟩
  | .hbm, ⟨24, _⟩ => ⟨S1x16, .f32⟩
  | .hbm, ⟨25, _⟩ => ⟨S8192x16, .f32⟩
  | .hbm, ⟨26, _⟩ => ⟨S8192x16, .f32⟩
  | .hbm, ⟨27, _⟩ => ⟨S_, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S16x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x8192, .f32⟩
  | .hbm, ⟨61, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  reducesTo_S8192x16_S8192_d1 : S8192x16.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x16_S16x8192_1_0 : S8192x16.Transposes [1, 0] S16x8192
  bcast_S_S8192x8192 : S_.BroadcastsInDim S8192x8192 (![] : Fin 0 → Fin S8192x8192.rank)
  reducesTo_S8192x8192_S8192_d1 : S8192x8192.ReducesTo [1] S8192
  dot_S8192x128_S128x64_S8192x64_1_0_0_1_n_n_wf : DotDims.WF S8192x128 S128x64 S8192x64 [1] [0] [0] [1] [] []
  dot_S8192x64_S64x32_S8192x32_1_0_0_1_n_n_wf : DotDims.WF S8192x64 S64x32 S8192x32 [1] [0] [0] [1] [] []
  dot_S8192x32_S32x16_S8192x16_1_0_0_1_n_n_wf : DotDims.WF S8192x32 S32x16 S8192x16 [1] [0] [0] [1] [] []
  dot_S8192x16_S16x16_S8192x16_1_0_0_1_n_n_wf : DotDims.WF S8192x16 S16x16 S8192x16 [1] [0] [0] [1] [] []
  dot_S8192x16_S16x8192_S8192x8192_1_0_0_1_n_n_wf : DotDims.WF S8192x16 S16x8192 S8192x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.Affinity.lean ====
/-
  The row-normalised Student-t affinities of a point cloud, as one function of the embedding matrix.

  For an embedding z : [8192, 16] over the extended reals, the squared distance of rows r and s is taken by
  the norm identity |z_r|² + |z_s|² − 2·⟨z_r, z_s⟩ and clamped at zero from below; the affinity of (r, s) is
  1 / (1 + that distance), and the probability of (r, s) is the affinity divided by the sum of row r's affinities.
  The constants 0, 1 and 2 stay the binary words the programs write; every operation is the exact one on the
  extended reals, the quotient the ideal instance's total division.

  Both programs compute this function. The kernel reads it one block of 256 rows at a time from three operands:
  its rows, the row vector of all squared norms, and the transposed embedding. `blockProb` is that block's
  function of arbitrary operands, and `blockProb_eq` says it is `prob` at the block's rows once the three operands
  are what the host prepares from z.
-/
import Idealize.ShloMosaic.PureOps.Ideal.Laws
import Idealize.ShloMosaic.Lib.ValueIdx

noncomputable section

namespace Cert.Affinity

open Idealize.ShloMosaic Idealize.ShloMosaic.ValueIdx

/-- The squared norm of row `r`. -/
def sqNorm (z : (⟨2, ![8192, 16]⟩ : Shape).Idx → EReal) (r : Fin 8192) : EReal :=
  ∑ k : Fin 16, z (ix2 r k) * z (ix2 r k)

/-- The inner product of rows `r` and `s`. -/
def rowDot (z : (⟨2, ![8192, 16]⟩ : Shape).Idx → EReal) (r s : Fin 8192) : EReal :=
  ∑ k : Fin 16, z (ix2 r k) * z (ix2 s k)

/-- The Student-t affinity of rows `r` and `s`: 1 / (1 + max(|z_r|² + |z_s|² − 2⟨z_r, z_s⟩, 0)). -/
def weight (z : (⟨2, ![8192, 16]⟩ : Shape).Idx → EReal) (r s : Fin 8192) : EReal :=
  Ideal.div (Ideal.ofBits .f32 0x3F800000#32)
    (Ideal.ofBits .f32 0x3F800000#32
      + max ((sqNorm z r + sqNorm z s) - Ideal.ofBits .f32 0x40000000#32 * rowDot z r s) (Ideal.ofBits .f32 0x00000000#32))

/-- The probability of (r, s): row `r`'s affinities normalised by their sum. -/
def probAt (z : (⟨2, ![8192, 16]⟩ : Shape).Idx → EReal) (r s : Fin 8192) : EReal :=
  Ideal.div (weight z r s) (∑ s' : Fin 8192, weight z r s')

/-- The whole [8192, 8192] array of probabilities. -/
def prob (z : (⟨2, ![8192, 16]⟩ : Shape).Idx → EReal) : (⟨2, ![8192, 8192]⟩ : Shape).Idx → EReal :=
  fun i => probAt z (i 0) (i 1)

theorem prob_ix2 (z : (⟨2, ![8192, 16]⟩ : Shape).Idx → EReal) (r s : Fin 8192) : prob z (ix2 r s) = probAt z r s := rfl

/-! ## One block of 256 rows, from the three operands the kernel is given -/

/-- The affinity of local row `p` and column `s` from a block of rows `q`, a row vector of squared norms `ks` and a
    transposed embedding `zt`. -/
def blockWeight (q : (⟨2, ![256, 16]⟩ : Shape).Idx → EReal) (ks : (⟨2, ![1, 8192]⟩ : Shape).Idx → EReal)
    (zt : (⟨2, ![16, 8192]⟩ : Shape).Idx → EReal) (p : Fin 256) (s : Fin 8192) : EReal :=
  Ideal.div (Ideal.ofBits .f32 0x3F800000#32)
    (Ideal.ofBits .f32 0x3F800000#32
      + max (((∑ k : Fin 16, q (ix2 p k) * q (ix2 p k)) + ks (ix2 (0 : Fin 1) s))
              - Ideal.ofBits .f32 0x40000000#32 * ∑ k : Fin 16, q (ix2 p k) * zt (ix2 k s))
            (Ideal.ofBits .f32 0x00000000#32))

/-- The block's probabilities: each local row's affinities normalised by their sum. -/
def blockProb (q : (⟨2, ![256, 16]⟩ : Shape).Idx → EReal) (ks : (⟨2, ![1, 8192]⟩ : Shape).Idx → EReal)
    (zt : (⟨2, ![16, 8192]⟩ : Shape).Idx → EReal) (p : Fin 256) (s : Fin 8192) : EReal :=
  Ideal.div (blockWeight q ks zt p s) (∑ s' : Fin 8192, blockWeight q ks zt p s')

/-- When the block's rows are rows `row p` of `z`, the row vector holds `0 + |z_s|²` (a sum started from the zero
    word) and the third operand is `z` transposed, the block's affinities are `z`'s at those rows. -/
theorem blockWeight_eq (z : (⟨2, ![8192, 16]⟩ : Shape).Idx → EReal) (row : Fin 256 → Fin 8192)
    (q : (⟨2, ![256, 16]⟩ : Shape).Idx → EReal) (ks : (⟨2, ![1, 8192]⟩ : Shape).Idx → EReal)
    (zt : (⟨2, ![16, 8192]⟩ : Shape).Idx → EReal)
    (hq : ∀ p k, q (ix2 p k) = z (ix2 (row p) k))
    (hks : ∀ s, ks (ix2 (0 : Fin 1) s) = Ideal.ofBits .f32 0x00000000#32 + sqNorm z s)
    (hzt : ∀ k s, zt (ix2 k s) = z (ix2 s k)) (p : Fin 256) (s : Fin 8192) :
    blockWeight q ks zt p s = weight z (row p) s := by
  unfold blockWeight weight
  rw [hks s, Ideal.ofBits_zero_f32, zero_add]
  simp only [hq, hzt]
  rfl

/-- And so are its probabilities. -/
theorem blockProb_eq (z : (⟨2, ![8192, 16]⟩ : Shape).Idx → EReal) (row : Fin 256 → Fin 8192)
    (q : (⟨2, ![256, 16]⟩ : Shape).Idx → EReal) (ks : (⟨2, ![1, 8192]⟩ : Shape).Idx → EReal)
    (zt : (⟨2, ![16, 8192]⟩ : Shape).Idx → EReal)
    (hq : ∀ p k, q (ix2 p k) = z (ix2 (row p) k))
    (hks : ∀ s, ks (ix2 (0 : Fin 1) s) = Ideal.ofBits .f32 0x00000000#32 + sqNorm z s)
    (hzt : ∀ k s, zt (ix2 k s) = z (ix2 s k)) (p : Fin 256) (s : Fin 8192) :
    blockProb q ks zt p s = probAt z (row p) s := by
  unfold blockProb probAt
  simp only [blockWeight_eq z row q ks zt hq hks hzt]

end Cert.Affinity

end
-- ==== Proof.RefProb.lean ====
/-
  The reference program computes the row-normalised Student-t affinities of its embedding.

  Its embedding is the value of the four-layer encoder (the reference's stage `val_main_v18`, kept closed here).
  Read one operation at a time at the entry (r, s): the row sums of squares give 0 + |z_r|² and 0 + |z_s|²,
  broadcast along columns and along rows; the product of the embedding with its own transpose gives ⟨z_r, z_s⟩;
  the pointwise operations build 1 / (1 + max(|z_r|² + |z_s|² − 2⟨z_r, z_s⟩, 0)); and the row sum of those, started
  from the zero word and broadcast back along the row, is the divisor. With 0 + x = x that is `Cert.Affinity.prob`.
-/
import proofs.«166220_j4535485464988_2_alg».proof.Proof.Gen.ReferenceIdeal.Read
import proofs.«166220_j4535485464988_2_alg».proof.Proof.Affinity

noncomputable section

namespace Cert.ReferenceIdeal.RefValue

open Cert.ReferenceIdeal Cert.ReferenceIdeal.Gen Cert.ReferenceIdeal.Read Idealize.ShloMosaic Idealize.ShloMosaic.ValueIdx
open Cert.Affinity

variable (x0 : (⟨S8192x128, .f32⟩ : BufTy).Contents (Elt Ideal)) (x1 : (⟨S128x64, .f32⟩ : BufTy).Contents (Elt Ideal)) (x2 : (⟨S64, .f32⟩ : BufTy).Contents (Elt Ideal)) (x3 : (⟨S64x32, .f32⟩ : BufTy).Contents (Elt Ideal)) (x4 : (⟨S32, .f32⟩ : BufTy).Contents (Elt Ideal)) (x5 : (⟨S32x16, .f32⟩ : BufTy).Contents (Elt Ideal)) (x6 : (⟨S16, .f32⟩ : BufTy).Contents (Elt Ideal)) (x7 : (⟨S16x16, .f32⟩ : BufTy).Contents (Elt Ideal)) (x8 : (⟨S16, .f32⟩ : BufTy).Contents (Elt Ideal))

/-- The reference's embedding: the encoder's value, never opened. -/
local notation "Z" => val_main_v18 (F := Ideal) x0 x1 x2 x3 x4 x5 x6 x7 x8

/-- The row sums of squares: entry `r` is the zero word plus the squared norm of row `r`. -/
theorem rowSq_apply (r : Fin 8192) :
    val_main_v20 (F := Ideal) x0 x1 x2 x3 x4 x5 x6 x7 x8 (ix1 r) = Ideal.ofBits .f32 0x00000000#32 + sqNorm Z r := by
  rw [val_main_v20_apply]
  unfold sqNorm
  refine congrArg₂ (· + ·) rfl (Finset.sum_congr rfl fun k _ => ?_)
  have e : idx_main_v20 (ix1 r) k = ix2 r k :=
    funext fun a => Fin.ext (by match a with | ⟨0, _⟩ => rfl | ⟨1, _⟩ => rfl)
  rw [val_main_v19_apply, e]
  rfl

/-- The affinity stage at (r, s) is the affinity of rows r and s of the embedding. -/
theorem weight_apply (r s : Fin 8192) :
    val_main_v36 (F := Ideal) x0 x1 x2 x3 x4 x5 x6 x7 x8 (ix2 r s) = weight Z r s := by
  have e1 : idx_main_v21 (idx_main_v23 (ix2 r s)) = ix1 r :=
    funext fun a => Fin.ext (by match a with | ⟨0, _⟩ => rfl)
  have e2 : idx_main_v22 (idx_main_v24 (ix2 r s)) = ix1 s :=
    funext fun a => Fin.ext (by match a with | ⟨0, _⟩ => rfl)
  have e3 : ∀ k : Fin 16, lidx_main_v27 (ix2 r s) k = ix2 r k := fun k =>
    funext fun a => Fin.ext (by match a with | ⟨0, _⟩ => rfl | ⟨1, _⟩ => rfl)
  have e4 : ∀ k : Fin 16, idx_main_v26 (ridx_main_v27 (ix2 r s) k) = ix2 s k := fun k =>
    funext fun a => Fin.ext (by match a with | ⟨0, _⟩ => rfl | ⟨1, _⟩ => rfl)
  rw [val_main_v36_apply, val_main_v35_apply, val_main_cst_3_apply, val_main_v34_apply, val_main_v33_apply,
    val_main_cst_2_apply, val_main_v32_apply, val_main_v31_apply, val_main_cst_1_apply, val_main_v30_apply,
    val_main_v25_apply, val_main_v23_apply, val_main_v21_apply, val_main_v24_apply, val_main_v22_apply,
    val_main_v29_apply, val_main_v28_apply, val_main_cst_0_apply, val_main_v27_apply, e1, e2, rowSq_apply, rowSq_apply]
  simp only [val_main_v26_apply, e3, e4]
  unfold weight rowDot
  simp only [Ideal.hostDivf_def, Ideal.addf_def, Ideal.subf_def, Ideal.mulf_def, Ideal.maximumf_def, Ideal.ofBits_def,
    Ideal.ofBits_zero_f32, zero_add]

/-- The result at (r, s) is the probability of (r, s). -/
theorem prob_apply (r s : Fin 8192) :
    val_main_v40 (F := Ideal) x0 x1 x2 x3 x4 x5 x6 x7 x8 (ix2 r s) = probAt Z r s := by
  have e : ∀ k : Fin 8192, idx_main_v37 (idx_main_v38 (idx_main_v39 (ix2 r s))) k = ix2 r k := fun k =>
    funext fun a => Fin.ext (by match a with | ⟨0, _⟩ => rfl | ⟨1, _⟩ => rfl)
  rw [val_main_v40_apply, val_main_v39_apply, val_main_v38_apply, val_main_v37_apply, val_main_cst_4_apply, weight_apply]
  simp only [e, weight_apply]
  unfold probAt
  simp only [Ideal.hostDivf_def, Ideal.ofBits_def, Ideal.ofBits_zero_f32, zero_add]

/-- The reference's result array is `prob` of its embedding. -/
theorem result_eq : val_main_v40 (F := Ideal) x0 x1 x2 x3 x4 x5 x6 x7 x8 = prob Z := by
  funext i
  obtain ⟨r, s, rfl⟩ : ∃ (r s : Fin 8192), i = ix2 r s := ⟨i 0, i 1, eq_ix2 i⟩
  exact prob_apply x0 x1 x2 x3 x4 x5 x6 x7 x8 r s

end Cert.ReferenceIdeal.RefValue

end
-- ==== Proof.LibRowOps.lean ====
/-
  Row operations of a matrix, and of a stack of matrices, read at an index given by coordinates, at the ideal
  values (floats are extended reals, every operation exact).

  A sum or a maximum along the last axis, the "keep the reduced axis as a unit axis" reshaping that follows it, and the
  broadcast of that column back over the row are written in two spellings: the vector unit's
  (`multi_reduction`, `shape_cast` [n] → [n, 1], `broadcast` [n, 1] → [n, m]) on one matrix, and the host's
  (`reduce`, `broadcast_in_dim` [B, n] → [B, n, 1] → [B, n, m]) on a stack of B matrices. Each lemma reads one such
  operation at the coordinates (c, k), respectively (b, c, k): a row sum is the sum over the row's entries, a row
  maximum the fold of `max` over them from the initial value, the two layout operations read the operand at the
  row's coordinate. Read this way the two spellings are the same function of the matrix b of the stack.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.RowOps

open Idealize.ShloMosaic Idealize.ShloMosaic.ValueIdx

variable {B n m : Nat} {α : Type}

/-! ## The reduced index with the row's coordinate put back -/

/-- In a matrix reduced along its rows, row `c` with column `k` put back is the entry (c, k). -/
theorem lift_ix1 (h : (⟨2, ![n, m]⟩ : Shape).Reduces [1] ⟨1, ![n]⟩) (c : Fin n) (k : Fin m) :
    h.lift (ix1 c) k = ix2 c k := by
  funext a; apply Fin.ext; fin_cases a <;> rfl

/-- In a stack of matrices reduced along the rows, row (b, c) with column `k` put back is the entry (b, c, k). -/
theorem lift_ix2 (h : (⟨3, ![B, n, m]⟩ : Shape).Reduces [2] ⟨2, ![B, n]⟩) (b : Fin B) (c : Fin n) (k : Fin m) :
    h.lift (ix2 b c) k = ix3 b c k := by
  funext a; apply Fin.ext; fin_cases a <;> rfl

/-! ## Row sums -/

/-- The vector unit's sum along the rows of a matrix, from the zero accumulator, at row `c`: the sum of the row's entries. -/
theorem vec_rowSum (v : FVec Ideal ⟨2, ![n, m]⟩ .f32) (h : (⟨2, ![n, m]⟩ : Shape).Reduces [1] ⟨1, ![n]⟩)
    (hφ : FKind.Formats .f32) (hacc : (0x00000000#32 : BitVec 32) = 0x00000000#32) (c : Fin n) :
    multiReduction .add [1] ⟨1, ![n]⟩ v 0x00000000#32 h hφ hacc (ix1 c) = ∑ k : Fin m, v (ix2 c k) :=
  (Ideal.multiReduction_add_single v 0x00000000#32 h hφ hacc (ix1 c)).trans
    (Finset.sum_congr rfl fun k _ => congrArg v (lift_ix1 h c k))

/-- The host's sum along the rows of a stack of matrices, at row (b, c): the initial value plus the sum of the row's entries. -/
theorem host_rowSum (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduceAdd x init h' hu (ix2 b c) = init (Shape.Idx.first hu) + ∑ k : Fin m, x (ix3 b c k) := by
  simp only [Host.reduceAdd, Ideal.hostReduceAdd_def]
  rw [Ideal.hostReduceAdd_single h' h]
  exact congrArg (_ + ·) (Finset.sum_congr rfl fun k _ => congrArg x (lift_ix2 h b c k))

/-! ## Row maxima -/

/-- The vector unit's maximum along the rows of a matrix, from the accumulator -∞, at row `c`: the fold of `max` over the row. -/
theorem vec_rowMax (v : FVec Ideal ⟨2, ![n, m]⟩ .f32) (h : (⟨2, ![n, m]⟩ : Shape).Reduces [1] ⟨1, ![n]⟩)
    (hφ : FKind.Formats .f32) (hacc : (0xFF800000#32 : BitVec 32) = 0xFF800000#32) (c : Fin n) :
    multiReduction .maximumf [1] ⟨1, ![n]⟩ v 0xFF800000#32 h hφ hacc (ix1 c)
      = (Finset.univ : Finset (Fin m)).fold max (Ideal.ofBits .f32 0xFF800000#32) (fun k => v (ix2 c k)) :=
  (Ideal.multiReduction_maximumf_single v 0xFF800000#32 h hφ hacc (ix1 c)).trans
    (congrArg (fun f => Finset.fold max (Ideal.ofBits .f32 0xFF800000#32) f (Finset.univ : Finset (Fin m)))
      (funext fun k => congrArg v (lift_ix1 h c k)))

/-- The host's maximum along the rows of a stack of matrices, at row (b, c): the fold of `max` over the row from the initial value. -/
theorem host_rowMax (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduce FloatOps.maximumf x init h' hu (ix2 b c)
      = (Finset.univ : Finset (Fin m)).fold max (init (Shape.Idx.first hu)) (fun k => x (ix3 b c k)) := by
  rw [Host.reduce_eq_fold_single FloatOps.maximumf x init h' h hu]
  exact congrArg (fun f => Finset.fold max (init (Shape.Idx.first hu)) f (Finset.univ : Finset (Fin m)))
    (funext fun k => congrArg x (lift_ix2 h b c k))

/-! ## The reduced axis kept as a unit axis, and the column broadcast back over the rows -/

/-- A vector of `n` entries cast to a column reads, at (c, 0), entry `c`. -/
theorem vec_col (v : (⟨1, ![n]⟩ : Shape).Idx → α) (h : (⟨1, ![n]⟩ : Shape).ShapeCasts ⟨2, ![n, 1]⟩) (c : Fin n) (u : Fin 1) :
    shapeCast ⟨2, ![n, 1]⟩ v h (ix2 c u) = v (ix1 c) :=
  shapeCast_apply v h _ _ (by
    have hu : u.val = 0 := by omega
    rw [Shape.rowMajor_val_one, Shape.rowMajor_val_two]
    show c.val = c.val * 1 + u.val
    omega)

/-- A column broadcast over `m` columns reads, at (c, k), the column's entry `c`. -/
theorem vec_colBroadcast (w : (⟨2, ![n, 1]⟩ : Shape).Idx → α) (h : (⟨2, ![n, 1]⟩ : Shape).Broadcasts ⟨2, ![n, m]⟩)
    (c : Fin n) (k : Fin m) : broadcastTo ⟨2, ![n, m]⟩ w h (ix2 c k) = w (ix2 c (0 : Fin 1)) := by
  refine broadcastTo_apply w h (ix2 c k) (ix2 c (0 : Fin 1)) fun ax => ?_
  match ax with
  | ⟨0, _⟩ =>
    show c.val = if n = 1 then 0 else c.val
    split
    · have := c.isLt; omega
    · rfl
  | ⟨1, _⟩ =>
    show (0 : Nat) = if (1 : Nat) = 1 then 0 else k.val
    rw [if_pos rfl]

/-- The host's `broadcast_in_dim` of a [B, n] array to [B, n, 1] reads, at (b, c, 0), the entry (b, c). -/
theorem host_col (v : (⟨2, ![B, n]⟩ : Shape).Idx → α) (h : (⟨2, ![B, n]⟩ : Shape).BroadcastsInDim ⟨3, ![B, n, 1]⟩ ![0, 1])
    (b : Fin B) (c : Fin n) (u : Fin 1) : broadcastInDim ⟨3, ![B, n, 1]⟩ ![0, 1] h v (ix3 b c u) = v (ix2 b c) := by
  refine broadcastInDim_apply _ h v (ix3 b c u) (ix2 b c) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl

/-- The host's `broadcast_in_dim` of a [B, n, 1] array to [B, n, m] reads, at (b, c, k), the entry (b, c, 0). -/
theorem host_colBroadcast (w : (⟨3, ![B, n, 1]⟩ : Shape).Idx → α)
    (h : (⟨3, ![B, n, 1]⟩ : Shape).BroadcastsInDim ⟨3, ![B, n, m]⟩ ![0, 1, 2]) (b : Fin B) (c : Fin n) (k : Fin m) :
    broadcastInDim ⟨3, ![B, n, m]⟩ ![0, 1, 2] h w (ix3 b c k) = w (ix3 b c (0 : Fin 1)) := by
  refine broadcastInDim_apply _ h w (ix3 b c k) (ix3 b c (0 : Fin 1)) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl
  | ⟨2, _⟩ =>
    show (0 : Nat) = if (1 : Nat) = 1 then 0 else k.val
    rw [if_pos rfl]

/-! ## Pointwise operations in the host's and the vector unit's spelling: the same function of each entry -/

theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem host_sqrt_apply {s : Shape} {φ : FTy} (x : FVec Ideal s φ) (i : s.Idx) : Host.sqrt x i = Ideal.sqrt (x i) := rfl
theorem host_exp_apply {s : Shape} {φ : FTy} (x : FVec Ideal s φ) (i : s.Idx) : Host.exp x i = Ideal.exp (x i) := rfl
theorem host_divf_apply {s : Shape} {φ : FTy} (x y : FVec Ideal s φ) (i : s.Idx) : Host.divf x y i = Ideal.div (x i) (y i) := rfl
/-- A scalar constant of the vector unit is the extended real its bit pattern denotes. -/
theorem scalar_ofBits (φ : FTy) (w : BitVec φ.bits) : Scalar.ofBits (F := Ideal) φ w = Ideal.ofBits φ w := rfl

/-- The host's `broadcast_in_dim` of a rank-zero array reads its one entry everywhere. -/
theorem host_splat {t : Shape} (x : (⟨0, ![]⟩ : Shape).Idx → α) (h : (⟨0, ![]⟩ : Shape).BroadcastsInDim t ![]) (j : t.Idx) :
    broadcastInDim t ![] h x j = x ix0 :=
  broadcastInDim_apply _ h x j ix0 fun a => a.elim0

end Cert.Lib.RowOps

end
-- ==== Proof.BodyProb.lean ====
/-
  What the kernel body stores, read at one entry of its [256, 8192] block.

  The body is given a block `q` of 256 rows of the embedding, the row vector `ks` of all squared norms and the
  transposed embedding `zt`. It sums the squares along each of its rows (a lane reduction from the zero
  accumulator, kept as a column and broadcast along the row), broadcasts `ks` down the rows, multiplies `q` by `zt`
  on the matrix unit into a zero accumulator — at the ideal values the plain sum over the 16 contracted
  coordinates —, builds 1 / (1 + max(|q_p|² + ks_s − 2·(q·zt)_{p,s}, 0)) pointwise, sums that along each row and
  divides by the sum. Entry (p, s) of the stored block is therefore `Cert.Affinity.blockProb q ks zt p s`.
-/
import proofs.«166220_j4535485464988_2_alg».proof.Proof.Gen.KernelIdeal.Skeleton
import proofs.«166220_j4535485464988_2_alg».proof.Proof.Affinity
import proofs.«166220_j4535485464988_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open Cert.Affinity Cert.Lib.RowOps

/-! ## The matrix product at an entry -/

theorem lhs_row (i : S256x8192.Idx) (q : dot_S256x16_S16x8192_S256x8192_1_0_0_1_n_n.contr.Idx) :
    (dot_S256x16_S16x8192_S256x8192_1_0_0_1_n_n.lhsIdx i q 0).val = (i 0).val := by
  unfold DotDims.lhsIdx
  rw [dif_neg (show ¬(0 : Fin S256x16.rank) ∈ dot_S256x16_S16x8192_S256x8192_1_0_0_1_n_n.lhsBatch by decide),
    dif_pos (show (0 : Fin S256x16.rank) ∈ dot_S256x16_S16x8192_S256x8192_1_0_0_1_n_n.lhsNonContracting by decide)]
  rfl

theorem rhs_col (i : S256x8192.Idx) (q : dot_S256x16_S16x8192_S256x8192_1_0_0_1_n_n.contr.Idx) :
    (dot_S256x16_S16x8192_S256x8192_1_0_0_1_n_n.rhsIdx i q 1).val = (i 1).val := by
  unfold DotDims.rhsIdx
  rw [dif_neg (show ¬(1 : Fin S16x8192.rank) ∈ dot_S256x16_S16x8192_S256x8192_1_0_0_1_n_n.rhsBatch by decide),
    dif_pos (show (1 : Fin S16x8192.rank) ∈ dot_S256x16_S16x8192_S256x8192_1_0_0_1_n_n.rhsNonContracting by decide)]
  rfl

/-- The [256,16] × [16,8192] product into the zero accumulator, at (p, s): the sum over the contracted coordinate
    of row p of the left operand times column s of the right. -/
theorem product_apply (a : FVec Ideal S256x16 .f32) (b : FVec Ideal S16x8192 .f32) (p : Fin 256) (s : Fin 8192) :
    matmul dot_S256x16_S16x8192_S256x8192_1_0_0_1_n_n none a b (constant (F := Ideal) S256x8192 .f32 0x00000000#32) (ix2 p s)
      = ∑ k : Fin 16, a (ix2 p k) * b (ix2 k s) := by
  simp only [matmul]
  rw [Ideal.matmul_constant_zero_apply, ← Equiv.sum_comp (contrEquiv1 dot_S256x16_S16x8192_S256x8192_1_0_0_1_n_n 16 rfl rfl).symm]
  refine Finset.sum_congr rfl fun k _ => ?_
  have hk := contrEquiv1_symm_val dot_S256x16_S16x8192_S256x8192_1_0_0_1_n_n 16 rfl rfl k
  have el : dot_S256x16_S16x8192_S256x8192_1_0_0_1_n_n.lhsIdx (ix2 p s) ((contrEquiv1 dot_S256x16_S16x8192_S256x8192_1_0_0_1_n_n 16 rfl rfl).symm k) = ix2 p k :=
    funext fun c => Fin.ext (by
      match c with
      | ⟨0, _⟩ => exact lhs_row _ _
      | ⟨1, _⟩ => exact (dot_S256x16_S16x8192_S256x8192_1_0_0_1_n_n.lhsIdx_val_of_single rfl _ _).trans hk)
  have er : dot_S256x16_S16x8192_S256x8192_1_0_0_1_n_n.rhsIdx (ix2 p s) ((contrEquiv1 dot_S256x16_S16x8192_S256x8192_1_0_0_1_n_n 16 rfl rfl).symm k) = ix2 k s :=
    funext fun c => Fin.ext (by
      match c with
      | ⟨0, _⟩ => exact (dot_S256x16_S16x8192_S256x8192_1_0_0_1_n_n.rhsIdx_val_of_single rfl _ _).trans hk
      | ⟨1, _⟩ => exact rhs_col _ _)
  rw [el, er]

/-! ## The affinities the body computes, and the stored quotient -/

/-- Each row's sum of squares, kept as a column and broadcast along the row. -/
def rowSq (v0 : Vec Ideal S256x16 .f32) : FVec Ideal S256x8192 .f32 :=
  have v1 : FVec Ideal S256x16 .f32 := shapeCast S256x16 v0 shapeCasts_S256x16_S256x16
  have v5 : FVec Ideal S256 .f32 := multiReduction .add [1] S256 (mulf v1 v1) 0x00000000#32 reduces_S256x16_S256 (.inl rfl) rfl
  broadcastTo S256x8192 (shapeCast S256x1 v5 shapeCasts_S256_S256x1) broadcasts_S256x1_S256x8192

/-- The row vector of squared norms broadcast down the rows. -/
def keySq (v8 : Vec Ideal S1x8192 .f32) : FVec Ideal S256x8192 .f32 :=
  have v9 : FVec Ideal S1x8192 .f32 := shapeCast S1x8192 v8 shapeCasts_S1x8192_S1x8192
  broadcastTo S256x8192 v9 broadcasts_S1x8192_S256x8192

/-- The block of rows times the transposed embedding. -/
def gram (v0 : Vec Ideal S256x16 .f32) (v2 : Vec Ideal S16x8192 .f32) : FVec Ideal S256x8192 .f32 :=
  have v1 : FVec Ideal S256x16 .f32 := shapeCast S256x16 v0 shapeCasts_S256x16_S256x16
  have v3 : FVec Ideal S16x8192 .f32 := shapeCast S16x8192 v2 shapeCasts_S16x8192_S16x8192
  matmul dot_S256x16_S16x8192_S256x8192_1_0_0_1_n_n none v1 v3 (constant S256x8192 .f32 0x00000000#32)

/-- The body's affinities as one [256, 8192] vector of its three loads: the operations of the payload up to the
    first quotient. -/
def affinities (v0 : Vec Ideal S256x16 .f32) (v2 : Vec Ideal S16x8192 .f32) (v8 : Vec Ideal S1x8192 .f32) :
    FVec Ideal S256x8192 .f32 :=
  have v15 : FVec Ideal S256x8192 .f32 :=
    subf (addf (rowSq v0) (keySq v8)) (mulf (broadcast S256x8192 (Scalar.ofBits .f32 0x40000000#32)) (gram v0 v2))
  have v17 : FVec Ideal S256x8192 .f32 := maximumf v15 (broadcast S256x8192 (Scalar.ofBits .f32 0x00000000#32))
  divf (broadcast S256x8192 (Scalar.ofBits .f32 0x3F800000#32)) (addf (broadcast S256x8192 (Scalar.ofBits .f32 0x3F800000#32)) v17)

/-- The payload is the affinities divided by their row sums (kept as a column, broadcast along the row). -/
theorem payload_eq (v0 : Vec Ideal S256x16 .f32) (v2 : Vec Ideal S16x8192 .f32) (v8 : Vec Ideal S1x8192 .f32) :
    k0_pay1 (F := Ideal) v0 v2 v8
      = divf (affinities v0 v2 v8)
          (broadcastTo S256x8192
            (shapeCast S256x1 (multiReduction .add [1] S256 (affinities v0 v2 v8) 0x00000000#32 reduces_S256x8192_S256 (.inl rfl) rfl)
              shapeCasts_S256_S256x1)
            broadcasts_S256x1_S256x8192) := rfl

theorem rowSq_apply (v0 : Vec Ideal S256x16 .f32) (p : Fin 256) (s : Fin 8192) :
    rowSq v0 (ix2 p s) = ∑ k : Fin 16, v0 (ix2 p k) * v0 (ix2 p k) := by
  unfold rowSq
  dsimp only
  rw [shapeCast_self v0, vec_colBroadcast, vec_col, vec_rowSum]
  rfl

theorem keySq_apply (v8 : Vec Ideal S1x8192 .f32) (p : Fin 256) (s : Fin 8192) :
    keySq v8 (ix2 p s) = v8 (ix2 (0 : Fin 1) s) := by
  unfold keySq
  rw [shapeCast_self v8, broadcastTo_1b_ab_apply]

theorem gram_apply (v0 : Vec Ideal S256x16 .f32) (v2 : Vec Ideal S16x8192 .f32) (p : Fin 256) (s : Fin 8192) :
    gram v0 v2 (ix2 p s) = ∑ k : Fin 16, v0 (ix2 p k) * v2 (ix2 k s) := by
  unfold gram
  rw [shapeCast_self v0, shapeCast_self v2]
  exact product_apply v0 v2 p s

/-- Entry (p, s) of the affinities. -/
theorem affinities_apply (v0 : Vec Ideal S256x16 .f32) (v2 : Vec Ideal S16x8192 .f32) (v8 : Vec Ideal S1x8192 .f32)
    (p : Fin 256) (s : Fin 8192) : affinities v0 v2 v8 (ix2 p s) = blockWeight v0 v8 v2 p s := by
  unfold affinities blockWeight
  show Ideal.div (Ideal.ofBits .f32 0x3F800000#32) (Ideal.ofBits .f32 0x3F800000#32 + max
      ((rowSq v0 (ix2 p s) + keySq v8 (ix2 p s)) - Ideal.ofBits .f32 0x40000000#32 * gram v0 v2 (ix2 p s))
      (Ideal.ofBits .f32 0x00000000#32)) = _
  rw [rowSq_apply, keySq_apply, gram_apply]

/-- Entry (p, s) of what the body stores. -/
theorem payload_apply (v0 : Vec Ideal S256x16 .f32) (v2 : Vec Ideal S16x8192 .f32) (v8 : Vec Ideal S1x8192 .f32)
    (p : Fin 256) (s : Fin 8192) : k0_pay1 (F := Ideal) v0 v2 v8 (ix2 p s) = blockProb v0 v8 v2 p s := by
  rw [payload_eq]
  show Ideal.div (affinities v0 v2 v8 (ix2 p s)) (broadcastTo S256x8192
      (shapeCast S256x1 (multiReduction .add [1] S256 (affinities v0 v2 v8) 0x00000000#32 reduces_S256x8192_S256 (.inl rfl) rfl)
        shapeCasts_S256_S256x1) broadcasts_S256x1_S256x8192 (ix2 p s)) = _
  rw [vec_colBroadcast, vec_col, vec_rowSum, affinities_apply]
  unfold blockProb
  exact congrArg _ (Finset.sum_congr rfl fun s' _ => affinities_apply v0 v2 v8 p s')

end Cert.KernelIdeal.Body

end
-- ==== Proof.Entry.lean ====
/-
  The three arrays the kernel's region is launched on, as the host operations before it leave them.

  The host computes the embedding z (the four-layer encoder; its value is kept closed here as the contents of the
  buffer it is written to), then prepares two more operands from it: the row sums of z·z, started from the zero
  word and reshaped from [8192] to [1, 8192], and z transposed to [16, 8192]. Read at an index:
  the row vector at (0, s) is 0 + |z_s|², the transposed array at (k, s) is z at (s, k).
-/
import proofs.«166220_j4535485464988_2_alg».proof.Proof.Gen.KernelIdeal.Frame
import proofs.«166220_j4535485464988_2_alg».proof.Proof.Affinity
import proofs.«166220_j4535485464988_2_alg».proof.Proof.LibRowOps
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.Affinity Cert.Lib.RowOps

variable (m : (ℓ : Loc nD τ sig) → Buf (Elt Ideal) ℓ)

/-- The embedding as the region finds it. -/
abbrev emb (c : Dev nD) : S8192x16.Idx → EReal := V m c main_v18

/-- The second operand is the reshaped row sums of squares of the embedding. -/
theorem norms_eq (c : Dev nD) :
    (V m c main_v21 : S1x8192.Idx → EReal)
      = shapeCast S1x8192
          (Host.reduceAdd (F := Ideal) (mulf (emb m c) (emb m c)) (constant (F := Ideal) S_ .f32 0x00000000#32)
            reducesTo_S8192x16_S8192_d1 h_S_)
          shapeCasts_S8192_S1x8192 := by
  dsimp only [emb, V]
  simp only [hostOps0, hostOps0_1, hostOps0_2, hostOps0_3, hostOps0_4, hostOps0_5, hostOps0_6, List.flatten_cons, List.flatten_nil, List.append_nil, List.cons_append, List.nil_append]
  after_results_simp
  rfl

/-- The third operand is the embedding transposed. -/
theorem transposed_eq (c : Dev nD) :
    (V m c main_v22 : S16x8192.Idx → EReal)
      = transpose S16x8192 [1, 0] (emb m c) transposes_S8192x16_S16x8192_1_0 := by
  dsimp only [emb, V]
  simp only [hostOps0, hostOps0_1, hostOps0_2, hostOps0_3, hostOps0_4, hostOps0_5, hostOps0_6, List.flatten_cons, List.flatten_nil, List.append_nil, List.cons_append, List.nil_append]
  after_results_simp

/-- A host sum along the rows of an [8192, 16] array, at row r: the initial value plus the row's sum. -/
theorem rowSum_apply (x : FVec Ideal S8192x16 .f32) (init : S_.Idx → Ideal .f32) (r : Fin 8192) :
    Host.reduceAdd (F := Ideal) x init reducesTo_S8192x16_S8192_d1 h_S_ (ix1 r)
      = init (Shape.Idx.first h_S_) + ∑ k : Fin 16, x (ix2 r k) := by
  have h : S8192x16.Reduces [1] S8192 := by decide
  simp only [Host.reduceAdd, Ideal.hostReduceAdd_def]
  rw [Ideal.hostReduceAdd_single reducesTo_S8192x16_S8192_d1 h]
  exact congrArg (_ + ·) (Finset.sum_congr rfl fun k _ => congrArg x (lift_ix1 h r k))

/-- The row vector at (0, s): the zero word plus the squared norm of row s. -/
theorem norms_apply (c : Dev nD) (s : Fin 8192) :
    (V m c main_v21 : S1x8192.Idx → EReal) (ix2 (0 : Fin 1) s) = Ideal.ofBits .f32 0x00000000#32 + sqNorm (emb m c) s := by
  rw [norms_eq, shapeCast_a_1a_apply, rowSum_apply]
  rfl

/-- The transposed array at (k, s): the embedding at (s, k). -/
theorem transposed_apply (c : Dev nD) (k : Fin 16) (s : Fin 8192) :
    (V m c main_v22 : S16x8192.Idx → EReal) (ix2 k s) = emb m c (ix2 s k) := by
  rw [transposed_eq, transpose_ix2_apply]

end Cert.KernelIdeal.Entry

end
-- ==== Proof.Embedding.lean ====
/-
  The kernel's program and the reference compute the same embedding.

  Both programs begin with the same four dense layers (a product with a weight matrix, a bias broadcast over the
  rows, and for the first three a maximum with zero), written by the same operations in the same order. So the
  buffer the kernel's region reads its embedding from holds, when the region is entered, the reference's encoder
  stage applied to the kernel's argument arrays: the two terms are the same operations of the same arrays.
-/
import proofs.«166220_j4535485464988_2_alg».proof.Proof.Gen.KernelIdeal.Frame
import proofs.«166220_j4535485464988_2_alg».proof.Proof.Gen.ReferenceIdeal.Read
import Idealize.ShloMosaic.Lib.StableHlo.Run

noncomputable section

namespace Cert.KernelIdeal.Embedding

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The embedding the region finds is the reference's encoder stage of the argument arrays. -/
theorem emb_eq (c : Dev nD) :
    (V m c main_v18 : S8192x16.Idx → EReal)
      = Cert.ReferenceIdeal.Read.val_main_v18 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  dsimp only [V]
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.Embedding

end
-- ==== Proof.Blocks.lean ====
/-
  From blocks to the array: after the kernel's run the result array holds the probabilities of the embedding.

  The grid has 32 points. Point t reads rows 256·t … 256·t + 255 of the embedding as its first operand, and the
  whole row vector of squared norms and the whole transposed embedding as its second and third; it writes back
  rows 256·t … 256·t + 255 of the [8192, 8192] result. By the body's value at an entry and the three operands'
  contents, what point t writes back is block t of `Cert.Affinity.prob` of the embedding; the 32 blocks cover
  every row (row i lies in block i / 256), so the array ends holding `prob` of the embedding, which is the
  reference's encoder stage of the argument arrays.
-/
import proofs.«166220_j4535485464988_2_alg».proof.Proof.Gen.KernelIdeal.Value
import proofs.«166220_j4535485464988_2_alg».proof.Proof.BodyProb
import proofs.«166220_j4535485464988_2_alg».proof.Proof.Entry
import proofs.«166220_j4535485464988_2_alg».proof.Proof.Embedding
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Affinity Cert.KernelIdeal.Entry

variable (m : (ℓ : Loc nD τ sig) → Buf (Elt Ideal) ℓ) (ρ : Dev nD → PrngReg)

theorem offsets_zero : (![0, 0] : Fin 2 → Nat) = fun _ => 0 := funext fun a => by fin_cases a <;> rfl

/-- The block indices at point t, decided over the grid: the rows' window and the result's window move with t along
    the rows; the other two windows stay on their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Global row of local row p at point t. -/
def rowOf (t : Fin cfg0.N) (p : Fin 256) : Fin 8192 :=
  ⟨256 * t.val + p.val, by have hN : cfg0.N = 32 := N_0; have := t.isLt; have := p.isLt; omega⟩

/-- The first operand's block at point t: rows 256·t … of the embedding. -/
theorem rows_apply (c : Dev nD) (t : Fin cfg0.N) (p : Fin 256) (k : Fin 16) :
    (iblk m c 0 t : Vec Ideal S256x16 .f32) (ix2 p k) = emb m c (ix2 (rowOf t p) k) := by
  obtain ⟨e0, e1, -⟩ := block_indices t
  have e : ((cfg0.win 0).blk t).view.emb (ix2 p k) = ix2 (rowOf t p) k :=
    funext fun a => Fin.ext (by
      match a with
      | ⟨0, _⟩ => show win0_0.index t (0 : Fin 2) * 256 + 1 * p.val = 256 * t.val + p.val; omega
      | ⟨1, _⟩ => show win0_0.index t (1 : Fin 2) * 16 + 1 * k.val = k.val; omega)
  show V m c main_v18 (((cfg0.win 0).blk t).view.emb (ix2 p k)) = V m c main_v18 (ix2 (rowOf t p) k)
  rw [e]

/-- The second operand's block at any point is the whole row vector. -/
theorem norms_block (c : Dev nD) (t : Fin cfg0.N) (s : Fin 8192) :
    (iblk m c 1 t : Vec Ideal S1x8192 .f32) (ix2 (0 : Fin 1) s) = (V m c main_v21 : S1x8192.Idx → EReal) (ix2 (0 : Fin 1) s) := by
  obtain ⟨-, -, e0, e1, -⟩ := block_indices t
  have e : ((cfg0.win 1).blk t).view.emb (ix2 (0 : Fin 1) s) = ix2 (0 : Fin 1) s :=
    funext fun a => Fin.ext (by
      match a with
      | ⟨0, _⟩ => show win0_1.index t (0 : Fin 2) * 1 + 1 * 0 = 0; omega
      | ⟨1, _⟩ => show win0_1.index t (1 : Fin 2) * 8192 + 1 * s.val = s.val; omega)
  show V m c main_v21 (((cfg0.win 1).blk t).view.emb (ix2 (0 : Fin 1) s)) = V m c main_v21 (ix2 (0 : Fin 1) s)
  rw [e]

/-- The third operand's block at any point is the whole transposed embedding. -/
theorem transposed_block (c : Dev nD) (t : Fin cfg0.N) (k : Fin 16) (s : Fin 8192) :
    (iblk m c 2 t : Vec Ideal S16x8192 .f32) (ix2 k s) = (V m c main_v22 : S16x8192.Idx → EReal) (ix2 k s) := by
  obtain ⟨-, -, -, -, e0, e1, -⟩ := block_indices t
  have e : ((cfg0.win 2).blk t).view.emb (ix2 k s) = ix2 k s :=
    funext fun a => Fin.ext (by
      match a with
      | ⟨0, _⟩ => show win0_2.index t (0 : Fin 2) * 16 + 1 * k.val = k.val; omega
      | ⟨1, _⟩ => show win0_2.index t (1 : Fin 2) * 8192 + 1 * s.val = s.val; omega)
  show V m c main_v22 (((cfg0.win 2).blk t).view.emb (ix2 k s)) = V m c main_v22 (ix2 k s)
  rw [e]

/-- WHAT POINT t WRITES BACK is block t of the probabilities of the embedding. -/
theorem flushed_eq (c : Dev nD) (t : Fin cfg0.N) :
    (dats m 0 c).flushed 3 t = ((cfg0.win 3).blk t).view.read (Elt Ideal) (prob (emb m c)) := by
  rw [Cert.KernelIdeal.Value.flushed3]
  unfold out0_3
  rw [View.canon_unit_zero offsets_zero]
  simp only [View.ld_unit_zero (S := S256x16) offsets_zero, View.ld_unit_zero (S := S16x8192) offsets_zero,
    View.ld_unit_zero (S := S1x8192) offsets_zero]
  funext j
  obtain ⟨p, s, rfl⟩ : ∃ (p : Fin 256) (s : Fin 8192), j = ix2 p s := ⟨j 0, j 1, eq_ix2 j⟩
  obtain ⟨-, -, -, -, -, -, e0, e1⟩ := block_indices t
  have e : ((cfg0.win 3).blk t).view.emb (ix2 p s) = ix2 (rowOf t p) s :=
    funext fun a => Fin.ext (by
      match a with
      | ⟨0, _⟩ => show win0_3.index t (0 : Fin 2) * 256 + 1 * p.val = 256 * t.val + p.val; omega
      | ⟨1, _⟩ => show win0_3.index t (1 : Fin 2) * 8192 + 1 * s.val = s.val; omega)
  show k0_pay1 (F := Ideal) (iblk m c 0 t) (iblk m c 2 t) (iblk m c 1 t) (ix2 p s)
    = prob (emb m c) (((cfg0.win 3).blk t).view.emb (ix2 p s))
  rw [e, prob_ix2]
  refine (Cert.KernelIdeal.Body.payload_apply (iblk m c 0 t) (iblk m c 2 t) (iblk m c 1 t) p s).trans ?_
  exact blockProb_eq (emb m c) (rowOf t) (iblk m c 0 t) (iblk m c 1 t) (iblk m c 2 t)
    (fun p k => rows_apply m c t p k)
    (fun s => (norms_block m c t s).trans (norms_apply m c s))
    (fun k s => (transposed_block m c t k s).trans (transposed_apply m c k s)) p s

/-- An index of the result is in point t's block iff each coordinate is in the block's range on its axis. -/
theorem mem_blk (t : Fin cfg0.N) (i : S8192x8192.Idx) :
    i ∈ ((cfg0.win 3).blk t).view.set ↔ ∀ a : Fin 2, win0_3.index t a * S256x8192.size a ≤ (i a).val
      ∧ (i a).val < win0_3.index t a * S256x8192.size a + S256x8192.size a := by
  show i ∈ ((View.whole main_v23).slice (win0_3.rect t)).set ↔ _
  rw [View.set_slice_whole, Rect.mem_set_unit]
  exact Iff.rfl

/-- Every entry of the result lies in the block of the point its row divided by 256 names. -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  have hN : cfg0.N = 32 := N_0
  have ht : (i 0).val / 256 < cfg0.N := by rw [hN]; omega
  refine ⟨⟨(i 0).val / 256, ht⟩, flush0_3 _, ?_⟩
  rw [mem_blk]
  obtain ⟨-, -, -, -, -, -, e0, e1⟩ := block_indices ⟨(i 0).val / 256, ht⟩
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_3.index ⟨(i 0).val / 256, ht⟩ (1 : Fin 2) * 8192 ≤ (i 1).val
      ∧ (i 1).val < win0_3.index ⟨(i 0).val / 256, ht⟩ (1 : Fin 2) * 8192 + 8192
    rw [e1]
    omega

/-- THE ARRAY after the run: the probabilities of the embedding. -/
theorem final (c : Dev nD) : (dats m 0 c).arrAt 3 cfg0.N = prob (emb m c) :=
  (dats m 0 c).arrAt_eq_of_cover 3 (prob (emb m c)) (fun t _ => flushed_eq m c t) cover

/-- The kernel's run, read: the result array at the probabilities of the encoder's value of the argument arrays,
    the arguments unchanged. -/
theorem run : θ_run defs (onTc (τ := τ) (main (F := Ideal))) ⟨m, fun _ => 0, ρ⟩ fun r => ∀ c : Dev nD,
      r.2.mem ((c : Thread nD τ).loc main_v23)
        = prob (Cert.ReferenceIdeal.Read.val_main_v18 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono
    (fun r h c => ⟨(h c).1.trans ((final m c).trans (congrArg prob (Cert.KernelIdeal.Embedding.emb_eq m c))), (h c).2⟩)
    (Cert.KernelIdeal.Value.run_blocks m ρ)

end Cert.KernelIdeal.Blocks

end
-- ==== Proof.lean ====
/-
  The kernel and its reference compute the same row-normalised Student-t affinities.

  Both programs encode x through the same four dense layers to an embedding z : [8192, 16], and both then form, for
  every pair of rows, p(r, s) = w(r, s) / Σ_s' w(r, s') with w(r, s) = 1 / (1 + max(|z_r|² + |z_s|² − 2⟨z_r, z_s⟩, 0))
  (`Cert.Affinity.prob`). The reference does so with whole-array host operations; the kernel lets the host prepare
  the squared norms as a row vector and z transposed, and computes 256 rows of p per grid point, each point seeing
  all 8192 columns, so that a row's normalising sum is taken inside one point.

  At the ideal values the two are the same function of z operation by operation: a lane reduction from the zero
  accumulator and a host reduction started from the zero word both give the row's sum (0 + x = x), the matrix unit's
  product into a zero accumulator and the host's product are the same sum over the 16 contracted coordinates, and
  the pointwise operations are literally the same. No law beyond that is needed, and the precondition is not used:
  the equality holds on all extended reals.

  The three frames are the generated ones (the reference's is its generated run with the result dropped); the
  idealization rewrote nothing, so `preserves` is `True`.
-/
import proofs.«166220_j4535485464988_2_alg».proof.Defs
import proofs.«166220_j4535485464988_2_alg».proof.Proof.Gen.Kernel
import proofs.«166220_j4535485464988_2_alg».proof.Proof.Gen.Kernel.Frame
import proofs.«166220_j4535485464988_2_alg».proof.Proof.Gen.KernelIdeal
import proofs.«166220_j4535485464988_2_alg».proof.Proof.Gen.KernelIdeal.Frame
import proofs.«166220_j4535485464988_2_alg».proof.Proof.Gen.KernelIdeal.Value
import proofs.«166220_j4535485464988_2_alg».proof.Proof.Gen.ReferenceIdeal
import proofs.«166220_j4535485464988_2_alg».proof.Proof.Gen.ReferenceIdeal.Run
import proofs.«166220_j4535485464988_2_alg».proof.Proof.Gen.ReferenceIdeal.Read
import proofs.«166220_j4535485464988_2_alg».proof.Proof.Gen.Pre_finite_inputs
import proofs.«166220_j4535485464988_2_alg».proof.Proof.Affinity
import proofs.«166220_j4535485464988_2_alg».proof.Proof.RefProb
import proofs.«166220_j4535485464988_2_alg».proof.Proof.Blocks

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `prob` of the encoder's value of the kernel's argument arrays: the
    kernel's by its blocks, the reference's by its stages read at an entry, its arguments being the kernel's. -/
theorem algebraic : Cert.algebraic_KernelIdeal_ReferenceIdeal := by
  intro m ρ m' ρ' _ hagree
  refine ⟨fun c => Cert.Affinity.prob (Cert.ReferenceIdeal.Read.val_main_v18 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v40_eq, Cert.ReferenceIdeal.RefValue.result_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
